-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩

class Facts : Prop where
  bcast_S_S16x10000x64 : S_.BroadcastsInDim S16x10000x64 (![] : Fin 0 → Fin S16x10000x64.rank)
  reducesTo_S16x10000x64_S_d0_1_2 : S16x10000x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x10000x64 .f32) (main_arg1 : IVec S16x10000x8 32) (main_arg2 : FVec F S512x64 .f32) (main_arg3 : FVec F S64 .f32) : IVec S_ 1 :=
  let main_v0 : FVec F S16x10000x64 .f32 := Host.absf main_arg0
  let main_cst : FVec F S_ .f32 := constant S_ .f32 0x7F800000#32
  let main_v1 : FVec F S16x10000x64 .f32 := broadcastInDim S16x10000x64 ![] bcast_S_S16x10000x64 main_cst
  let main_v2 : IVec S16x10000x64 1 := cmpf .olt main_v0 main_v1
  let main_c : IVec S_ 1 := constantI S_ 1 1#1
  let main_v3 : IVec S_ 1 := (fun x v => Host.reduce IntOp.andi x v reducesTo_S16x10000x64_S_d0_1_2 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩
abbrev S16 : Shape := ⟨1, ![16]⟩
abbrev S16x1x1 : Shape := ⟨3, ![16, 1, 1]⟩
abbrev S16x10000x8x1 : Shape := ⟨4, ![16, 10000, 8, 1]⟩
abbrev S16x10000x8x2 : Shape := ⟨4, ![16, 10000, 8, 2]⟩
abbrev S16x10000x8x64 : Shape := ⟨4, ![16, 10000, 8, 64]⟩
abbrev S16x10000x512 : Shape := ⟨3, ![16, 10000, 512]⟩
abbrev S1x64 : Shape := ⟨2, ![1, 64]⟩
abbrev S1x2000x512 : Shape := ⟨3, ![1, 2000, 512]⟩
abbrev S1x2000x64 : Shape := ⟨3, ![1, 2000, 64]⟩
abbrev S2000x512 : Shape := ⟨2, ![2000, 512]⟩
abbrev S2000x64 : Shape := ⟨2, ![2000, 64]⟩

abbrev nBuf : Space → Nat
  | .hbm => 46
  | .vmem => 6
  | .smem => 0
  | _ => 0

abbrev bufTy : (tb : Table) → Fin (tcTables nBuf tb) → BufTy
  | .hbm, ⟨0, _⟩ => ⟨S16x10000x64, .f32⟩
  | .hbm, ⟨1, _⟩ => ⟨S16x10000x8, .i32⟩
  | .hbm, ⟨2, _⟩ => ⟨S512x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x10000x8, .i32⟩
  | .hbm, ⟨8, _⟩ => ⟨S16x10000x8, .i32⟩
  | .hbm, ⟨9, _⟩ => ⟨S_, .i32⟩
  | .hbm, ⟨10, _⟩ => ⟨S16x10000x8, .i32⟩
  | .hbm, ⟨11, _⟩ => ⟨S16x10000x8, .i32⟩
  | .hbm, ⟨12, _⟩ => ⟨S16, .i32⟩
  | .hbm, ⟨13, _⟩ => ⟨S16x1x1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x10000x8, .i32⟩
  | .hbm, ⟨23, _⟩ => ⟨S16x10000x8, .i1⟩
  | .hbm, ⟨24, _⟩ => ⟨S_, .i32⟩
  | .hbm, ⟨25, _⟩ => ⟨S16x10000x8, .i32⟩
  | .hbm, ⟨26, _⟩ => ⟨S16x10000x8, .i32⟩
  | .hbm, ⟨27, _⟩ => ⟨S16x10000x8, .i32⟩
  | .hbm, ⟨28, _⟩ => ⟨S16x10000x8, .i32⟩
  | .hbm, ⟨29, _⟩ => ⟨S16x10000x8x1, .i32⟩
  | .hbm, ⟨30, _⟩ => ⟨S16x10000x8x1, .i32⟩
  | .hbm, ⟨31, _⟩ => ⟨S16x10000x8x2, .i32⟩
  | .hbm, ⟨32, _⟩ => ⟨S16x10000x8x64, .f32⟩
  | .hbm, ⟨33, _⟩ => ⟨S_, .i32⟩
  | .hbm, ⟨34, _⟩ => ⟨S16x10000x8, .i32⟩
  | .hbm, ⟨35, _⟩ => ⟨S16x10000x8, .i1⟩
  | .hbm, ⟨36, _⟩ => ⟨S16x10000x8x1, .i1⟩
  | .hbm, ⟨37, _⟩ => ⟨S_, .f32⟩
  | .hbm, ⟨38, _⟩ => ⟨S16x10000x8x64, .i1⟩
  | .hbm, ⟨39, _⟩ => ⟨S16x10000x8x64, .f32⟩
  | .hbm, ⟨40, _⟩ => ⟨S16x10000x8x64, .f32⟩
  | .hbm, ⟨41, _⟩ => ⟨S16x10000x8x64, .bf16⟩
  | .hbm, ⟨42, _⟩ => ⟨S16x10000x512, .bf16⟩
  | .hbm, ⟨43, _⟩ => ⟨S512x64, .bf16⟩
  | .hbm, ⟨44, _⟩ => ⟨S1x64, .f32⟩
  | .hbm, ⟨45, _⟩ => ⟨S16x10000x64, .f32⟩
  | .local _ .vmem, ⟨0, _⟩ => ⟨S1x2000x512, .bf16⟩
  | .local _ .vmem, ⟨1, _⟩ => ⟨S1x2000x512, .bf16⟩
  | .local _ .vmem, ⟨2, _⟩ => ⟨S512x64, .bf16⟩
  | .local _ .vmem, ⟨3, _⟩ => ⟨S1x64, .f32⟩
  | .local _ .vmem, ⟨4, _⟩ => ⟨S1x2000x64, .f32⟩
  | .local _ .vmem, ⟨5, _⟩ => ⟨S1x2000x64, .f32⟩
  | _, _ => ⟨S16x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x10000x8 : S_.BroadcastsInDim S16x10000x8 (![] : Fin 0 → Fin S16x10000x8.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x10000x8_0_1_2 : S16x1x1.BroadcastsInDim S16x10000x8 (![0, 1, 2] : Fin 3 → Fin S16x10000x8.rank)
  bcast_S16x10000x8_S16x10000x8x1_0_1_2 : S16x10000x8.BroadcastsInDim S16x10000x8x1 (![0, 1, 2] : Fin 3 → Fin S16x10000x8x1.rank)
  concatenates_S16x10000x8x1_S16x10000x8x1_S16x10000x8x2_d3 : Shape.Concatenates [S16x10000x8x1, S16x10000x8x1] S16x10000x8x2 3
  bcast_S16x10000x8x1_S16x10000x8x64_0_1_2_3 : S16x10000x8x1.BroadcastsInDim S16x10000x8x64 (![0, 1, 2, 3] : Fin 4 → Fin S16x10000x8x64.rank)
  bcast_S_S16x10000x8x64 : S_.BroadcastsInDim S16x10000x8x64 (![] : Fin 0 → Fin S16x10000x8x64.rank)
  bitsLt_bf16_f32 : FTy.bits .bf16 < FTy.bits .f32
  shapeCasts_S16x10000x8x64_S16x10000x512 : S16x10000x8x64.ShapeCasts S16x10000x512
  shapeCasts_S64_S1x64 : S64.ShapeCasts S1x64
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  gather_S16x10000x64_S16x10000x8x2_S16x10000x8x64_3_01_n_n_01_3_1164_wf : GatherDims.WF S16x10000x64 S16x10000x8x2 S16x10000x8x64 [3] [0, 1] [] [0, 1] [] 3 ![1, 1, 64]
  dot_S2000x512_S512x64_S2000x64_1_0_0_1_n_n_wf : DotDims.WF S2000x512 S512x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x512.size a ≤ S16x10000x512.size a
  hwx0_0 : ∀ i : grid0.Coords, EltTy.bits .bf16 = 32 ∨ (Rect.block (s := S16x10000x512) S1x2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x64.size a ≤ S16x10000x64.size a
  hwx0_3 : ∀ i : grid0.Coords, EltTy.bits .f32 = 32 ∨ (Rect.block (s := S16x10000x64) S1x2000x64.size (cc0_transform_3 i) (hinb0_3 i)).WholeWords (EltTy.packing .f32)

variable [Facts₀]

def gather_S16x10000x64_S16x10000x8x2_S16x10000x8x64_3_01_n_n_01_3_1164 : GatherDims S16x10000x64 S16x10000x8x2 S16x10000x8x64 where
  offsetDims := [3]
  collapsedSliceDims := [0, 1]
  operandBatchingDims := []
  startIndicesBatchingDims := []
  startIndexMap := [0, 1]
  indexVectorDim := 3
  sliceSizes := ![1, 1, 64]
  wf := gather_S16x10000x64_S16x10000x8x2_S16x10000x8x64_3_01_n_n_01_3_1164_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_v23) S1x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x10000x64 : Shape := ⟨3, ![16, 10000, 64]⟩
abbrev S16x10000x8 : Shape := ⟨3, ![16, 10000, 8]⟩
abbrev S512x64 : Shape := ⟨2, ![512, 64]⟩
abbrev S64 : Shape := ⟨1, ![64]⟩
abbrev S_ : Shape := ⟨0, ![]⟩
abbrev S16 : Shape := ⟨1, ![16]⟩
abbrev S16x1x1 : Shape := ⟨3, ![16, 1, 1]⟩
abbrev S16x10000x8x1 : Shape := ⟨4, ![16, 10000, 8, 1]⟩
abbrev S16x10000x8x2 : Shape := ⟨4, ![16, 10000, 8, 2]⟩
abbrev S16x10000x8x64 : Shape := ⟨4, ![16, 10000, 8, 64]⟩
abbrev S16x10000x512 : Shape := ⟨3, ![16, 10000, 512]⟩
abbrev S1x1x64 : Shape := ⟨3, ![1, 1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16x10000x64, .f32⟩
  | .hbm, ⟨1, _⟩ => ⟨S16x10000x8, .i32⟩
  | .hbm, ⟨2, _⟩ => ⟨S512x64, .f32⟩
  | .hbm, ⟨3, _⟩ => ⟨S64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x10000x8, .i32⟩
  | .hbm, ⟨8, _⟩ => ⟨S16x10000x8, .i32⟩
  | .hbm, ⟨9, _⟩ => ⟨S_, .i32⟩
  | .hbm, ⟨10, _⟩ => ⟨S16x10000x8, .i32⟩
  | .hbm, ⟨11, _⟩ => ⟨S16x10000x8, .i32⟩
  | .hbm, ⟨12, _⟩ => ⟨S16, .i32⟩
  | .hbm, ⟨13, _⟩ => ⟨S16x1x1, .i32⟩
  | .hbm, ⟨14, _⟩ => ⟨S_, .i32⟩
  | .hbm, ⟨15, _⟩ => ⟨S16x1x1, .i32⟩
  | .hbm, ⟨16, _⟩ => ⟨S16x1x1, .i1⟩
  | .hbm, ⟨17, _⟩ => ⟨S_, .i32⟩
  | .hbm, ⟨18, _⟩ => ⟨S16x1x1, .i32⟩
  | .hbm, ⟨19, _⟩ => ⟨S16x1x1, .i32⟩
  | .hbm, ⟨20, _⟩ => ⟨S16x1x1, .i32⟩
  | .hbm, ⟨21, _⟩ => ⟨S_, .i32⟩
  | .hbm, ⟨22, _⟩ => ⟨S16x10000x8, .i32⟩
  | .hbm, ⟨23, _⟩ => ⟨S16x10000x8, .i1⟩
  | .hbm, ⟨24, _⟩ => ⟨S_, .i32⟩
  | .hbm, ⟨25, _⟩ => ⟨S16x10000x8, .i32⟩
  | .hbm, ⟨26, _⟩ => ⟨S16x10000x8, .i32⟩
  | .hbm, ⟨27, _⟩ => ⟨S16x10000x8, .i32⟩
  | .hbm, ⟨28, _⟩ => ⟨S16x10000x8, .i32⟩
  | .hbm, ⟨29, _⟩ => ⟨S16x10000x8x1, .i32⟩
  | .hbm, ⟨30, _⟩ => ⟨S16x10000x8x1, .i32⟩
  | .hbm, ⟨31, _⟩ => ⟨S16x10000x8x2, .i32⟩
  | .hbm, ⟨32, _⟩ => ⟨S16x10000x8x64, .f32⟩
  | .hbm, ⟨33, _⟩ => ⟨S_, .i32⟩
  | .hbm, ⟨34, _⟩ => ⟨S16x10000x8, .i32⟩
  | .hbm, ⟨35, _⟩ => ⟨S16x10000x8, .i1⟩
  | .hbm, ⟨36, _⟩ => ⟨S16x10000x8x1, .i1⟩
  | .hbm, ⟨37, _⟩ => ⟨S_, .f32⟩
  | .hbm, ⟨38, _⟩ => ⟨S16x10000x8x64, .i1⟩
  | .hbm, ⟨39, _⟩ => ⟨S16x10000x8x64, .f32⟩
  | .hbm, ⟨40, _⟩ => ⟨S16x10000x8x64, .f32⟩
  | .hbm, ⟨41, _⟩ => ⟨S16x10000x512, .f32⟩
  | .hbm, ⟨42, _⟩ => ⟨S16x10000x64, .f32⟩
  | .hbm, ⟨43, _⟩ => ⟨S1x1x64, .f32⟩
  | .hbm, ⟨44, _⟩ => ⟨S16x10000x64, .f32⟩
  | .hbm, ⟨45, _⟩ => ⟨S16x10000x64, .f32⟩
  | .hbm, ⟨46, _⟩ => ⟨S_, .f32⟩
  | .hbm, ⟨47, _⟩ => ⟨S16x10000x64, .f32⟩
  | .hbm, ⟨48, _⟩ => ⟨S16x10000x64, .f32⟩
  | _, _ => ⟨S16x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_cst : Ref sig .tc := ⟨.hbm, 46, rfl⟩
abbrev main_call2_v0 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S_S16x10000x8 : S_.BroadcastsInDim S16x10000x8 (![] : Fin 0 → Fin S16x10000x8.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x10000x8_0_1_2 : S16x1x1.BroadcastsInDim S16x10000x8 (![0, 1, 2] : Fin 3 → Fin S16x10000x8.rank)
  bcast_S16x10000x8_S16x10000x8x1_0_1_2 : S16x10000x8.BroadcastsInDim S16x10000x8x1 (![0, 1, 2] : Fin 3 → Fin S16x10000x8x1.rank)
  concatenates_S16x10000x8x1_S16x10000x8x1_S16x10000x8x2_d3 : Shape.Concatenates [S16x10000x8x1, S16x10000x8x1] S16x10000x8x2 3
  bcast_S16x10000x8x1_S16x10000x8x64_0_1_2_3 : S16x10000x8x1.BroadcastsInDim S16x10000x8x64 (![0, 1, 2, 3] : Fin 4 → Fin S16x10000x8x64.rank)
  bcast_S_S16x10000x8x64 : S_.BroadcastsInDim S16x10000x8x64 (![] : Fin 0 → Fin S16x10000x8x64.rank)
  shapeCasts_S16x10000x8x64_S16x10000x512 : S16x10000x8x64.ShapeCasts S16x10000x512
  bcast_S64_S1x1x64_2 : S64.BroadcastsInDim S1x1x64 (![2] : Fin 1 → Fin S1x1x64.rank)
  bcast_S1x1x64_S16x10000x64_0_1_2 : S1x1x64.BroadcastsInDim S16x10000x64 (![0, 1, 2] : Fin 3 → Fin S16x10000x64.rank)
  bcast_S_S16x10000x64 : S_.BroadcastsInDim S16x10000x64 (![] : Fin 0 → Fin S16x10000x64.rank)
  gather_S16x10000x64_S16x10000x8x2_S16x10000x8x64_3_01_n_n_01_3_1164_wf : GatherDims.WF S16x10000x64 S16x10000x8x2 S16x10000x8x64 [3] [0, 1] [] [0, 1] [] 3 ![1, 1, 64]
  dot_S16x10000x512_S512x64_S16x10000x64_2_0_01_1_n_n_wf : DotDims.WF S16x10000x512 S512x64 S16x10000x64 [2] [0] [0, 1] [1] [] []

variable [Facts₀]

def gather_S16x10000x64_S16x10000x8x2_S16x10000x8x64_3_01_n_n_01_3_1164 : GatherDims S16x10000x64 S16x10000x8x2 S16x10000x8x64 where
  offsetDims := [3]
  collapsedSliceDims := [0, 1]
  operandBatchingDims := []
  startIndicesBatchingDims := []
  startIndexMap := [0, 1]
  indexVectorDim := 3
  sliceSizes := ![1, 1, 64]
  wf := gather_S16x10000x64_S16x10000x8x2_S16x10000x8x64_3_01_n_n_01_3_1164_wf
def dot_S16x10000x512_S512x64_S16x10000x64_2_0_01_1_n_n : DotDims S16x10000x512 S512x64 S16x10000x64 where
  lhsContracting := [2]
  rhsContracting := [0]
  lhsNonContracting := [0, 1]
  rhsNonContracting := [1]
  lhsBatch := []
  rhsBatch := []
  wf := dot_S16x10000x512_S512x64_S16x10000x64_2_0_01_1_n_n_wf

class Facts : Prop extends Facts₀ where

variable [Facts]
-- ==== Proof.DenseSpec.lean ====
/-
  The layer both programs compute, as one function of arrays.

  Every node v of every batch b carries a row of 512 numbers (the gathered and masked neighbour features, laid
  side by side).  The layer multiplies that row by a 512 × 64 weight, adds a bias of length 64 and clips at
  zero.  Entry (b, v, u) of the result is

      max (Σ_k cols[b, v, k] · W[k, u] + bias[u]) 0

  on the extended reals, where the 0 is the value of the all-zero f32 word.  The sum is a finite sum in a
  commutative monoid, so its order and grouping are immaterial, and no law that fails at an infinity is used:
  the statement needs no finiteness of the inputs.
-/
import Idealize.ShloMosaic.PureOps.Ideal
import Idealize.ShloMosaic.Lib.ValueIdx

noncomputable section

namespace Cert.GraphConv

open Idealize.ShloMosaic Idealize.ShloMosaic.ValueIdx

/-- The value of the all-zero f32 word. -/
abbrev zero : EReal := Ideal.ofBits .f32 0x00000000#32

/-- The dense layer over whole arrays: rows [16, 10000, 512], weight [512, 64], bias [64]. -/
def dense (cols : (⟨3, ![16, 10000, 512]⟩ : Shape).Idx → EReal) (W : (⟨2, ![512, 64]⟩ : Shape).Idx → EReal)
    (bias : (⟨1, ![64]⟩ : Shape).Idx → EReal) : (⟨3, ![16, 10000, 64]⟩ : Shape).Idx → EReal :=
  fun i => max ((∑ k : Fin 512, cols (ix3 (i 0) (i 1) k) * W (ix2 k (i 2))) + bias (ix1 (i 2))) zero

/-- The layer at the index with coordinates (b, v, u). -/
theorem dense_apply (cols : (⟨3, ![16, 10000, 512]⟩ : Shape).Idx → EReal) (W : (⟨2, ![512, 64]⟩ : Shape).Idx → EReal)
    (bias : (⟨1, ![64]⟩ : Shape).Idx → EReal) (b : Fin 16) (v : Fin 10000) (u : Fin 64) :
    dense cols W bias (ix3 b v u) = max ((∑ k : Fin 512, cols (ix3 b v k) * W (ix2 k u)) + bias (ix1 u)) zero := rfl

end Cert.GraphConv

end
-- ==== Proof.RefDense.lean ====
/-
  The reference's result is the dense layer of its own reshaped rows.

  The reference gathers, masks and reshapes the node features into rows [16, 10000, 512] (the stage before its
  matrix product), contracts the last axis of the rows with the first axis of the weight, adds the bias
  broadcast along the two leading axes, and takes the maximum with a splat zero.  Read at an index (b, v, u),
  the product is the sum over k of rows[b, v, k] · W[k, u], the broadcast bias is bias[u], and the maximum is
  the maximum of the two numbers: the layer's defining expression.
-/
import proofs.«111594_j53687091200297_2_alg».proof.Proof.Gen.ReferenceIdeal.Read
import proofs.«111594_j53687091200297_2_alg».proof.Proof.DenseSpec

noncomputable section

namespace Cert.GraphConv

open Idealize.ShloMosaic Idealize.ShloMosaic.ValueIdx
open Cert.ReferenceIdeal Cert.ReferenceIdeal.Read

/-- The reference's last stage, as a function of the argument arrays, is the dense layer applied to its
    reshaped rows, the weight and the bias. -/
theorem ref_eq_dense (x0 : (⟨S16x10000x64, .f32⟩ : BufTy).Contents (Elt Ideal)) (x1 : (⟨S16x10000x8, .i32⟩ : BufTy).Contents (Elt Ideal))
    (x2 : (⟨S512x64, .f32⟩ : BufTy).Contents (Elt Ideal)) (x3 : (⟨S64, .f32⟩ : BufTy).Contents (Elt Ideal)) :
    val_main_v27 (F := Ideal) x0 x1 x2 x3 = dense (val_main_v22 (F := Ideal) x0 x1) x2 x3 := by
  funext i
  have el : ∀ k : Fin 512, lidx_main_v23 i k = ix3 (i 0) (i 1) k := fun k => funext fun a => Fin.ext (by
    match a with
    | ⟨0, _⟩ => rfl
    | ⟨1, _⟩ => rfl
    | ⟨2, _⟩ => rfl)
  have er : ∀ k : Fin 512, ridx_main_v23 i k = ix2 k (i 2) := fun k => funext fun a => Fin.ext (by
    match a with
    | ⟨0, _⟩ => rfl
    | ⟨1, _⟩ => rfl)
  have eb : idx_main_v24 (idx_main_v25 i) = ix1 (i 2) := funext fun a => Fin.ext (by
    match a with
    | ⟨0, _⟩ => rfl)
  rw [val_main_v27_apply, val_main_v26_apply, val_main_v23_apply, val_main_v25_apply, val_main_v24_apply,
    val_main_call2_v0_apply, val_main_call2_cst_apply]
  simp only [el, er, eb, Ideal.addf_def, Ideal.maximumf_def, Ideal.ofBits_def]
  rfl

end Cert.GraphConv

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.BlockDense.lean ====
/-
  What the kernel body stores, read at one index.

  At a grid point the body loads a [1, 2000, 512] block of rows, the whole [512, 64] weight and the bias as one
  [1, 64] row.  It drops the rows' unit axis, multiplies the [2000, 512] rows by the weight into a zero
  accumulator, adds the bias row repeated over the 2000 rows, takes the maximum with a splat zero and puts the
  unit axis back.  Read at (0, r, u) this is the layer's expression of row r of the block, column u of the
  weight and entry u of the bias row: the casts only rename coordinates, the product into zero is the sum over
  the shared axis, and the repeated row reads the row at (0, u).
-/
import proofs.«111594_j53687091200297_2_alg».proof.Proof.Gen.KernelIdeal.Skeleton
import proofs.«111594_j53687091200297_2_alg».proof.Proof.LibRowOps
import proofs.«111594_j53687091200297_2_alg».proof.Proof.DenseSpec
import Idealize.ShloMosaic.Lib.ValueLayout

noncomputable section

namespace Cert.GraphConv

open Idealize.ShloMosaic Idealize.ShloMosaic.ValueIdx
open Cert.KernelIdeal Cert.KernelIdeal.Gen

/-- The body's product is a plain [2000, 512] × [512, 64] one: the rows' second axis against the weight's first. -/
theorem dot_plain : Cert.RowOps.IsPlain dot_S2000x512_S512x64_S2000x64_1_0_0_1_n_n :=
  ⟨rfl, rfl, rfl, rfl, rfl, rfl⟩

/-- The stored block at (0, r, u): the maximum with zero of the sum over k of rows[0, r, k] · weight[k, u] plus the
    bias row at (0, u). -/
theorem block_apply (x0 : Vec Ideal S1x2000x512 .bf16) (x1 : Vec Ideal S512x64 .bf16) (x2 : Vec Ideal S1x64 .f32)
    (r : Fin 2000) (u : Fin 64) :
    k0_pay1 (F := Ideal) x0 x1 x2 (ix3 (0 : Fin 1) r u)
      = max ((∑ k : Fin 512, x0 (ix3 (0 : Fin 1) r k) * x1 (ix2 k u)) + x2 (ix2 (0 : Fin 1) u)) zero := by
  unfold k0_pay1
  rw [shapeCast_ab_1ab_apply, maximumf_apply, addf_apply, broadcast_apply, broadcastTo_1b_ab_apply,
    shapeCast_self, shapeCast_self]
  refine congrArg (fun s => max (s + x2 (ix2 (0 : Fin 1) u)) zero)
    ((Cert.RowOps.matmul_zero_apply dot_plain (φ₁ := .bf16) (φ₂ := .bf16) none _ x1 r u).trans (Finset.sum_congr rfl fun k _ => ?_))
  rw [shapeCast_1ab_ab_apply]

end Cert.GraphConv

end
-- ==== Proof.EntryArrays.lean ====
/-
  The three arrays the kernel's region reads, as it finds them.

  Before the region the program prepares its operands on the host.  The rows are the gathered and masked node
  features, converted to a narrower float format and reshaped from [16, 10000, 8, 64] to [16, 10000, 512]; on
  the extended reals the conversion is the identity, so the rows are the very array the reference builds
  before its matrix product (the same gather of the same clipped indices, the same mask, the same reshape).
  The weight is the weight argument converted, hence unchanged.  The bias is the bias argument viewed as one
  [1, 64] row, whose entry (0, u) is the argument's entry u.
-/
import proofs.«111594_j53687091200297_2_alg».proof.Proof.Gen.KernelIdeal.Frame
import proofs.«111594_j53687091200297_2_alg».proof.Proof.Gen.ReferenceIdeal.Read
import Idealize.ShloMosaic.Lib.StableHlo.Run
import Idealize.ShloMosaic.Lib.ValueLayout

set_option maxRecDepth 16384

noncomputable section

namespace Cert.GraphConv

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

set_option maxHeartbeats 2000000 in
/-- The rows the region reads are the reference's reshaped rows of the same two argument arrays: both are the
    same composition of the same operations of the node and mapping arguments, the kernel's with one more
    format change, which is the identity on extended reals. -/
theorem entry_rows (c : Dev nD) :
    (V m c main_v23 : S16x10000x512.Idx → EReal)
      = Cert.ReferenceIdeal.Read.val_main_v22 (F := Ideal) (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The weight the region reads is the weight argument. -/
theorem entry_weight (c : Dev nD) :
    (V m c main_v24 : S512x64.Idx → EReal) = m ((c : Thread nD τ).loc main_arg2) := by
  dsimp only [V]
  simp only [hostOps0, hostOps0_1, hostOps0_2, hostOps0_3, hostOps0_4, List.flatten_cons, List.flatten_nil, List.append_nil,
    List.cons_append, List.nil_append]
  after_results_simp
  rfl

/-- The bias row the region reads, at (0, u), is the bias argument at u. -/
theorem entry_bias_apply (c : Dev nD) (u : Fin 64) :
    (V m c main_v25 : S1x64.Idx → EReal) (ix2 (0 : Fin 1) u)
      = (m ((c : Thread nD τ).loc main_arg3) : S64.Idx → EReal) (ix1 u) := by
  have e : (V m c main_v25 : S1x64.Idx → EReal)
      = shapeCast S1x64 (m ((c : Thread nD τ).loc main_arg3) : S64.Idx → EReal) shapeCasts_S64_S1x64 := by
    dsimp only [V]
    simp only [hostOps0, hostOps0_1, hostOps0_2, hostOps0_3, hostOps0_4, List.flatten_cons, List.flatten_nil, List.append_nil,
      List.cons_append, List.nil_append]
    after_results_simp
    rfl
  rw [e, shapeCast_a_1a_apply]

end Cert.GraphConv

end
-- ==== Proof.KernelDense.lean ====
/-
  From the blocks the kernel writes to the whole result array.

  The grid has 16 × 5 points.  At point (p, q) the rows' window holds rows 2000·q … 2000·q + 1999 of batch p, the
  weight's and the bias's windows hold those whole arrays, and the body's stored block goes back to rows
  2000·q … 2000·q + 1999 of batch p of the result.  The stored block at (0, r, u) is the layer's expression of
  row r of the rows' block (BlockDense), and row r of that block is row 2000·q + r of batch p of the rows'
  array: so every point writes its block of ONE array, the dense layer of the arrays the region finds.  Those
  arrays are the reference's reshaped rows, the weight argument and the bias argument (EntryArrays).  The 80
  blocks cover the result array — the point that covers (b, v, u) is (b, v / 2000) — so the array ends as
  that layer.
-/
import proofs.«111594_j53687091200297_2_alg».proof.Proof.Gen.KernelIdeal.Value
import proofs.«111594_j53687091200297_2_alg».proof.Proof.BlockDense
import proofs.«111594_j53687091200297_2_alg».proof.Proof.EntryArrays
import Idealize.ShloMosaic.Lib.Pipeline.Value

set_option maxRecDepth 16384

noncomputable section

namespace Cert.GraphConv

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl

/-- The result: the dense layer of the reference's reshaped rows of the node and mapping arguments, the weight
    argument and the bias argument. -/
abbrev result (c : Dev nD) : Buf (Elt Ideal) ((c : Thread nD τ).loc main_v26) :=
  dense (Cert.ReferenceIdeal.Read.val_main_v22 (F := Ideal) (m ((c : Thread nD τ).loc main_arg0)) (m ((c : Thread nD τ).loc main_arg1)))
    (m ((c : Thread nD τ).loc main_arg2)) (m ((c : Thread nD τ).loc main_arg3))

/-! ## One stored block against the layer -/

/-- A stored block entry is the layer's entry at an index of the whole arrays, as soon as the block's row, the
    weight's column and the bias row's entry are the arrays' at that index. -/
theorem block_is_layer (x0 : Vec Ideal S1x2000x512 .bf16) (x1 : Vec Ideal S512x64 .bf16) (x2 : Vec Ideal S1x64 .f32)
    (cols : S16x10000x512.Idx → EReal) (W : S512x64.Idx → EReal) (bias : S64.Idx → EReal)
    (r : Fin 2000) (u : Fin 64) (i : S16x10000x64.Idx)
    (h0 : ∀ k : Fin 512, x0 (ix3 (0 : Fin 1) r k) = cols (ix3 (i 0) (i 1) k))
    (h1 : ∀ k : Fin 512, x1 (ix2 k u) = W (ix2 k (i 2)))
    (h2 : x2 (ix2 (0 : Fin 1) u) = bias (ix1 (i 2))) :
    k0_pay1 (F := Ideal) x0 x1 x2 (ix3 (0 : Fin 1) r u) = dense cols W bias i := by
  rw [block_apply]
  unfold dense
  simp only [h0, h1, h2]

/-! ## The windows' blocks as parts of their arrays -/

/-- An entry of the rows' block at a point is the rows' array at the index the block's rectangle sends it to. -/
theorem rows_block_apply (c : Dev nD) (t : Fin cfg0.N) (y : S1x2000x512.Idx) (k : S16x10000x512.Idx)
    (hk0 : win0_0.index t 0 * 1 + 1 * (y 0).val = (k 0).val)
    (hk1 : win0_0.index t 1 * 2000 + 1 * (y 1).val = (k 1).val)
    (hk2 : win0_0.index t 2 * 512 + 1 * (y 2).val = (k 2).val) :
    (iblk m c 0 t : Vec Ideal S1x2000x512 .bf16) y = (V m c main_v23 : S16x10000x512.Idx → EReal) k := by
  unfold iblk
  rw [View.read_apply]
  show V m c main_v23 _ = V m c main_v23 _
  congr 1
  funext a
  apply Fin.ext
  match a with
  | ⟨0, _⟩ => exact hk0
  | ⟨1, _⟩ => exact hk1
  | ⟨2, _⟩ => exact hk2

/-- An entry of the weight's block at a point is the weight array at the same index, the block being the array. -/
theorem weight_block_apply (c : Dev nD) (t : Fin cfg0.N) (y : S512x64.Idx) (k : S512x64.Idx)
    (hk0 : win0_1.index t 0 * 512 + 1 * (y 0).val = (k 0).val)
    (hk1 : win0_1.index t 1 * 64 + 1 * (y 1).val = (k 1).val) :
    (iblk m c 1 t : Vec Ideal S512x64 .bf16) y = (V m c main_v24 : S512x64.Idx → EReal) k := by
  unfold iblk
  rw [View.read_apply]
  show V m c main_v24 _ = V m c main_v24 _
  congr 1
  funext a
  apply Fin.ext
  match a with
  | ⟨0, _⟩ => exact hk0
  | ⟨1, _⟩ => exact hk1

/-- An entry of the bias row's block at a point is the bias row at the same index. -/
theorem bias_block_apply (c : Dev nD) (t : Fin cfg0.N) (y : S1x64.Idx) (k : S1x64.Idx)
    (hk0 : win0_2.index t 0 * 1 + 1 * (y 0).val = (k 0).val)
    (hk1 : win0_2.index t 1 * 64 + 1 * (y 1).val = (k 1).val) :
    (iblk m c 2 t : Vec Ideal S1x64 .f32) y = (V m c main_v25 : S1x64.Idx → EReal) k := by
  unfold iblk
  rw [View.read_apply]
  show V m c main_v25 _ = V m c main_v25 _
  congr 1
  funext a
  apply Fin.ext
  match a with
  | ⟨0, _⟩ => exact hk0
  | ⟨1, _⟩ => exact hk1

/-! ## The index maps over the grid -/

/-- Decided over the 80 points: the rows' window moves with the result's along the batch and the row-block axes
    and stays at 0 along the last; the weight's and the bias's windows never move; the result's block indices
    stay in their ranges. -/
theorem index_facts : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) ≤ 15
    ∧ win0_3.index t (1 : Fin 3) ≤ 4 :=
  (by decide +kernel : ∀ t : Fin grid0.N, _)

/-- Every (batch, row block) pair is some point's. -/
theorem index_onto : ∀ (q0 : Fin 16) (q1 : Fin 5), ∃ t : Fin cfg0.N, win0_3.index t = ![q0.val, q1.val, 0] :=
  (by decide +kernel : ∀ (q0 : Fin 16) (q1 : Fin 5), ∃ t : Fin grid0.N, win0_3.index t = ![q0.val, q1.val, 0])

/-! ## What each point writes back, the cover, the array -/

/-- What point t writes back is block t of the result. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero off3]
  simp only [View.ld_unit_zero (S := S1x2000x512) off3, View.ld_unit_zero (S := S512x64) off2, View.ld_unit_zero (S := S1x64) off2]
  obtain ⟨e00, e01, e02, e32, e10, e11, e20, e21, b0, b1⟩ := index_facts t
  funext j
  obtain ⟨z, r, u, rfl⟩ : ∃ (z : Fin 1) (r : Fin 2000) (u : Fin 64), j = ix3 z r u := ⟨j 0, j 1, j 2, eq_ix3 j⟩
  obtain rfl : z = 0 := Subsingleton.elim _ _
  show k0_pay1 (F := Ideal) (iblk m c 0 t) (iblk m c 1 t) (iblk m c 2 t) (ix3 (0 : Fin 1) r u)
    = result m c (((cfg0.win 3).blk t).view.emb (ix3 (0 : Fin 1) r u))
  have hr : r.val < 2000 := r.isLt
  have hu : u.val < 64 := u.isLt
  have i0 : ((((cfg0.win 3).blk t).view.emb (ix3 (0 : Fin 1) r u)) 0).val = win0_3.index t 0 * 1 + 1 * 0 := rfl
  have i1 : ((((cfg0.win 3).blk t).view.emb (ix3 (0 : Fin 1) r u)) 1).val = win0_3.index t 1 * 2000 + 1 * r.val := rfl
  have i2 : ((((cfg0.win 3).blk t).view.emb (ix3 (0 : Fin 1) r u)) 2).val = win0_3.index t 2 * 64 + 1 * u.val := rfl
  refine block_is_layer (iblk m c 0 t) (iblk m c 1 t) (iblk m c 2 t) _ _ _ r u _ (fun k => ?_) (fun k => ?_) ?_
  · rw [← entry_rows m c]
    refine rows_block_apply m c t _ _ ?_ ?_ ?_
    · show win0_0.index t 0 * 1 + 1 * 0 = _; rw [i0]; omega
    · show win0_0.index t 1 * 2000 + 1 * r.val = _; rw [i1]; omega
    · show win0_0.index t 2 * 512 + 1 * k.val = k.val; omega
  · rw [← entry_weight m c]
    refine weight_block_apply m c t _ _ ?_ ?_
    · show win0_1.index t 0 * 512 + 1 * k.val = k.val; omega
    · show win0_1.index t 1 * 64 + 1 * u.val = _; rw [i2]; omega
  · have hu' : (((cfg0.win 3).blk t).view.emb (ix3 (0 : Fin 1) r u)) 2 = u := Fin.ext (by rw [i2]; omega)
    rw [hu', ← entry_bias_apply m c u]
    refine bias_block_apply m c t _ _ ?_ ?_
    · show win0_2.index t 0 * 1 + 1 * 0 = 0; omega
    · show win0_2.index t 1 * 64 + 1 * u.val = u.val; omega

/-- An index of the result array is in point t's block iff each coordinate is in the block's range on its axis. -/
theorem mem_blk (t : Fin cfg0.N) (i : S16x10000x64.Idx) :
    i ∈ ((cfg0.win 3).blk t).view.set ↔ ∀ a : Fin 3, win0_3.index t a * S1x2000x64.size a ≤ (i a).val ∧ (i a).val < win0_3.index t a * S1x2000x64.size a + S1x2000x64.size a := by
  show i ∈ ((View.whole main_v26).slice (win0_3.rect t)).set ↔ _
  rw [View.set_slice_whole, Rect.mem_set_unit]
  exact Iff.rfl

/-- Every index (b, v, u) of the result is in the block of the point (b, v / 2000). -/
theorem cover (i : S16x10000x64.Idx) :
    ∃ t : Fin cfg0.N, (cfg0.win 3).flush t = true ∧ i ∈ ((cfg0.win 3).blk t).view.set := by
  have hi0 : (i 0).val < 16 := (i 0).isLt
  have hi1 : (i 1).val < 10000 := (i 1).isLt
  have hi2 : (i 2).val < 64 := (i 2).isLt
  obtain ⟨t, ht⟩ := index_onto ⟨(i 0).val, hi0⟩ ⟨(i 1).val / 2000, by omega⟩
  have q0 : win0_3.index t (0 : Fin 3) = (i 0).val := congrFun ht 0
  have q1 : win0_3.index t (1 : Fin 3) = (i 1).val / 2000 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 64 ≤ (i 2).val ∧ (i 2).val < win0_3.index t (2 : Fin 3) * 64 + 64; omega

/-- The result array after the run is the layer. -/
theorem final (c : Dev nD) : (dats m 0 c).arrAt 3 cfg0.N = result m c :=
  (dats m 0 c).arrAt_eq_of_cover 3 (result m c) (fun t _ => flushed_eq m c t) cover

/-- The kernel's run: the result array at the layer, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GraphConv

end
-- ==== Proof.lean ====
/-
  The graph-convolution layer: a kernel that works block by block against a whole-array reference, on the
  extended reals.

  Both programs gather, for every node of every batch, the feature rows of its eight mapped neighbours (a zero
  row where the mapping is negative), lay the eight rows side by side as one row of 512 numbers, multiply by a
  512 × 64 weight, add a bias and clip at zero.  The gather, the mask and the reshape are the same host
  operations in both; the kernel also narrows the rows and the weight to a 16-bit format, which on the extended
  reals changes nothing.  The kernel then computes the product, the bias and the clip on 80 blocks of 2000 rows,
  the reference on the whole arrays at once.  Entry (b, v, u) of either result is

      max (Σ_k rows[b, v, k] · W[k, u] + bias[u]) 0,

  the same finite sum of the same products on both sides, so no finiteness of the inputs is used.

  The modules: DenseSpec states the layer as one function of arrays; RefDense reads the reference's result as
  that function; BlockDense reads one stored block of the kernel at an index; EntryArrays identifies the three
  arrays the kernel's region reads; KernelDense joins the 80 blocks into the whole result array.  Here the five
  claims are assembled.
-/
import proofs.«111594_j53687091200297_2_alg».proof.Defs
import proofs.«111594_j53687091200297_2_alg».proof.Proof.Gen.Kernel
import proofs.«111594_j53687091200297_2_alg».proof.Proof.Gen.Kernel.Skeleton
import proofs.«111594_j53687091200297_2_alg».proof.Proof.Gen.Kernel.Launch
import proofs.«111594_j53687091200297_2_alg».proof.Proof.Gen.Kernel.Points
import proofs.«111594_j53687091200297_2_alg».proof.Proof.Gen.Kernel.Frame
import proofs.«111594_j53687091200297_2_alg».proof.Proof.Gen.KernelIdeal
import proofs.«111594_j53687091200297_2_alg».proof.Proof.Gen.KernelIdeal.Skeleton
import proofs.«111594_j53687091200297_2_alg».proof.Proof.Gen.KernelIdeal.Launch
import proofs.«111594_j53687091200297_2_alg».proof.Proof.Gen.KernelIdeal.Points
import proofs.«111594_j53687091200297_2_alg».proof.Proof.Gen.KernelIdeal.Frame
import proofs.«111594_j53687091200297_2_alg».proof.Proof.Gen.ReferenceIdeal
import proofs.«111594_j53687091200297_2_alg».proof.Proof.Gen.KernelIdeal.Value
import proofs.«111594_j53687091200297_2_alg».proof.Proof.Gen.ReferenceIdeal.Run
import proofs.«111594_j53687091200297_2_alg».proof.Proof.Gen.ReferenceIdeal.Read
import proofs.«111594_j53687091200297_2_alg».proof.Proof.Gen.Pre_finite_inputs
import proofs.«111594_j53687091200297_2_alg».proof.Proof.RefDense
import proofs.«111594_j53687091200297_2_alg».proof.Proof.KernelDense
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the four arguments both programs end with the result array at the dense layer of
    the reshaped gathered rows, the weight and the bias: the kernel by its blocks (KernelDense), the reference by
    reading its last stage (RefDense). -/
theorem algebraic : Cert.algebraic_KernelIdeal_ReferenceIdeal := by
  intro m ρ m' ρ' _ hagree
  refine ⟨fun c => Cert.GraphConv.result m c, Cert.GraphConv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.GraphConv.ref_eq_dense, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
